-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x128 .f32) (main_arg12 : FVec F S128 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x128 .f32) (main_arg12 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x128 .f32) (main_arg12 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x128 : Shape := ⟨2, ![64, 128]⟩
abbrev S1x128 : Shape := ⟨2, ![1, 128]⟩

abbrev nBuf : Space → Nat
  | .hbm => 190
  | .vmem => 15
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x128, .f32⟩
  | 12 => ⟨S128, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S50000x256, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x256, .f32⟩
  | 108 => ⟨S850000x1, .f32⟩
  | 109 => ⟨S850000x256, .f32⟩
  | 110 => ⟨S850000x256, .f32⟩
  | 111 => ⟨S_, .f32⟩
  | 112 => ⟨S50000x256, .f32⟩
  | 113 => ⟨S850000x1, .i32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x256, .f32⟩

abbrev hbmTy0_1 (i : Nat) : BufTy := match i % 128 with
  | 0 => ⟨S850000, .i32⟩
  | 1 => ⟨S850000x1, .i32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x256, .f32⟩
  | 22 => ⟨S850000x1, .f32⟩
  | 23 => ⟨S850000x256, .f32⟩
  | 24 => ⟨S850000x256, .f32⟩
  | 25 => ⟨S_, .f32⟩
  | 26 => ⟨S50000x256, .f32⟩
  | 27 => ⟨S850000x1, .i32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S64x256, .f32⟩
  | 37 => ⟨S50000x1, .i32⟩
  | 38 => ⟨S64x256, .f32⟩
  | 39 => ⟨S_, .f32⟩
  | 40 => ⟨S50000, .f32⟩
  | 41 => ⟨S_, .f32⟩
  | 42 => ⟨S64, .f32⟩
  | 43 => ⟨S50000x1, .i32⟩
  | 44 => ⟨S64, .f32⟩
  | 45 => ⟨S_, .f32⟩
  | 46 => ⟨S64, .f32⟩
  | 47 => ⟨S64, .f32⟩
  | 48 => ⟨S64x1, .f32⟩
  | 49 => ⟨S64x256, .f32⟩
  | 50 => ⟨S64x256, .f32⟩
  | 51 => ⟨S64x256, .f32⟩
  | 52 => ⟨S1x256, .f32⟩
  | 53 => ⟨S64x256, .f32⟩
  | 54 => ⟨S64x256, .f32⟩
  | 55 => ⟨S_, .f32⟩
  | 56 => ⟨S64x256, .f32⟩
  | 57 => ⟨S64x256, .f32⟩
  | 58 => ⟨S64x128, .f32⟩
  | 59 => ⟨S1x128, .f32⟩
  | 60 => ⟨S64x128, .f32⟩
  | 61 => ⟨S64x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call2_cst : Ref sig .tc := ⟨.hbm, 118, rfl⟩
abbrev main_call2_v0 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_v84 : Ref sig .tc := ⟨.hbm, 123, rfl⟩
abbrev main_v85 : Ref sig .tc := ⟨.hbm, 124, rfl⟩
abbrev main_c_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_19 : Ref sig .tc := ⟨.hbm, 131, rfl⟩
abbrev main_v91 : Ref sig .tc := ⟨.hbm, 132, rfl⟩
abbrev main_v92 : Ref sig .tc := ⟨.hbm, 133, rfl⟩
abbrev main_c_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call3_cst : Ref sig .tc := ⟨.hbm, 160, rfl⟩
abbrev main_call3_v0 : Ref sig .tc := ⟨.hbm, 161, rfl⟩
abbrev main_v115 : Ref sig .tc := ⟨.hbm, 162, rfl⟩
abbrev main_cst_24 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_25 : Ref sig .tc := ⟨.hbm, 167, rfl⟩
abbrev main_v119 : Ref sig .tc := ⟨.hbm, 168, rfl⟩
abbrev main_cst_26 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_27 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call4_cst : Ref sig .tc := ⟨.hbm, 183, rfl⟩
abbrev main_call4_v0 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S50000_S850000x1_S850000_n_0_0_1_wf : ScatterDims.WF S50000 S850000x1 S850000 [] [0] [0] 1
  dot_S5000x256_S256x256_S5000x256_1_0_0_1_n_n_wf : DotDims.WF S5000x256 S256x256 S5000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v82) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x128 : Shape := ⟨2, ![64, 128]⟩
abbrev S1x128 : Shape := ⟨2, ![1, 128]⟩

abbrev nBuf : Space → Nat
  | .hbm => 190
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x128, .f32⟩
  | 12 => ⟨S128, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S50000x256, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x256, .f32⟩
  | 108 => ⟨S850000x1, .f32⟩
  | 109 => ⟨S850000x256, .f32⟩
  | 110 => ⟨S850000x256, .f32⟩
  | 111 => ⟨S_, .f32⟩
  | 112 => ⟨S50000x256, .f32⟩
  | 113 => ⟨S850000x1, .i32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x256, .f32⟩

abbrev hbmTy0_1 (i : Nat) : BufTy := match i % 128 with
  | 0 => ⟨S850000, .i32⟩
  | 1 => ⟨S850000x1, .i32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x256, .f32⟩
  | 22 => ⟨S850000x1, .f32⟩
  | 23 => ⟨S850000x256, .f32⟩
  | 24 => ⟨S850000x256, .f32⟩
  | 25 => ⟨S_, .f32⟩
  | 26 => ⟨S50000x256, .f32⟩
  | 27 => ⟨S850000x1, .i32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S64x256, .f32⟩
  | 37 => ⟨S50000x1, .i32⟩
  | 38 => ⟨S64x256, .f32⟩
  | 39 => ⟨S_, .f32⟩
  | 40 => ⟨S50000, .f32⟩
  | 41 => ⟨S_, .f32⟩
  | 42 => ⟨S64, .f32⟩
  | 43 => ⟨S50000x1, .i32⟩
  | 44 => ⟨S64, .f32⟩
  | 45 => ⟨S_, .f32⟩
  | 46 => ⟨S64, .f32⟩
  | 47 => ⟨S64, .f32⟩
  | 48 => ⟨S64x1, .f32⟩
  | 49 => ⟨S64x256, .f32⟩
  | 50 => ⟨S64x256, .f32⟩
  | 51 => ⟨S64x256, .f32⟩
  | 52 => ⟨S1x256, .f32⟩
  | 53 => ⟨S64x256, .f32⟩
  | 54 => ⟨S64x256, .f32⟩
  | 55 => ⟨S_, .f32⟩
  | 56 => ⟨S64x256, .f32⟩
  | 57 => ⟨S64x256, .f32⟩
  | 58 => ⟨S64x128, .f32⟩
  | 59 => ⟨S1x128, .f32⟩
  | 60 => ⟨S64x128, .f32⟩
  | 61 => ⟨S64x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call2_cst : Ref sig .tc := ⟨.hbm, 118, rfl⟩
abbrev main_call2_v0 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_v84 : Ref sig .tc := ⟨.hbm, 123, rfl⟩
abbrev main_v85 : Ref sig .tc := ⟨.hbm, 124, rfl⟩
abbrev main_c_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_19 : Ref sig .tc := ⟨.hbm, 131, rfl⟩
abbrev main_v91 : Ref sig .tc := ⟨.hbm, 132, rfl⟩
abbrev main_v92 : Ref sig .tc := ⟨.hbm, 133, rfl⟩
abbrev main_c_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call3_cst : Ref sig .tc := ⟨.hbm, 160, rfl⟩
abbrev main_call3_v0 : Ref sig .tc := ⟨.hbm, 161, rfl⟩
abbrev main_v115 : Ref sig .tc := ⟨.hbm, 162, rfl⟩
abbrev main_cst_24 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_25 : Ref sig .tc := ⟨.hbm, 167, rfl⟩
abbrev main_v119 : Ref sig .tc := ⟨.hbm, 168, rfl⟩
abbrev main_cst_26 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_27 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call4_cst : Ref sig .tc := ⟨.hbm, 183, rfl⟩
abbrev main_call4_v0 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S50000_S850000x1_S850000_n_0_0_1_wf : ScatterDims.WF S50000 S850000x1 S850000 [] [0] [0] 1
  dot_S50000x256_S256x256_S50000x256_1_0_0_1_n_n_wf : DotDims.WF S50000x256 S256x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x256_S64x256_1_0_0_1_n_n_wf : DotDims.WF S64x256 S256x256 S64x256 [1] [0] [0] [1] [] []
  dot_S64x256_S256x128_S64x128_1_0_0_1_n_n_wf : DotDims.WF S64x256 S256x128 S64x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.Product.lean ====
/-
  A matrix product entry by entry.

  For a 50000×256 array `x` and a 256×256 array `w` of extended reals, `rowsTimes x w` at (r, c) is the sum over the
  shared coordinate k of x(r, k) · w(k, c).  The shapes are spelt out as literals so that every program's own name for
  them unfolds to the same type.
-/
import Idealize.ShloMosaic.Lib.ValueIdx
import Idealize.ShloMosaic.PureOps.Ideal.Laws

noncomputable section

open scoped BigOperators

namespace Cert.Gcn

open Idealize.ShloMosaic Idealize.ShloMosaic.ValueIdx

/-- Rows times a matrix, entry by entry: the sum over the shared axis. -/
def rowsTimes (x : (⟨2, ![50000, 256]⟩ : Shape).Idx → EReal) (w : (⟨2, ![256, 256]⟩ : Shape).Idx → EReal) :
    (⟨2, ![50000, 256]⟩ : Shape).Idx → EReal :=
  fun j => ∑ k : Fin 256, x (ix2 (n0 := 50000) (n1 := 256) (j 0) k) * w (ix2 (n0 := 256) (n1 := 256) k (j 1))

end Cert.Gcn

end
-- ==== Proof.RegionValue.lean ====
/-
  What each of the three matrix-product regions leaves in its result array.

  A region runs the same body at ten grid points.  Point t loads rows 5000·t … 5000·t + 4999 of the left operand (a
  50000×256 array) and the whole 256×256 weight matrix, multiplies them on the matrix unit into a zero accumulator, and
  writes the 5000×256 product back as row block t of the result.  On the extended reals the rounding of the operands to
  bf16 is the identity and the product is the plain sum over the shared axis, so entry (r, c) of block t is
  ∑ k, x(5000·t + r, k) · w(k, c): block t of the whole product `rowsTimes x w`.  The ten blocks tile the result array,
  which therefore ends holding `rowsTimes x w` of the two arrays as the region finds them.

  Everything is stated at a parameter `V`, the buffer contents when the region is entered.
-/
import proofs.«128684_j52879637348574_1_alg».proof.Proof.Gen.KernelIdeal.Frame
import proofs.«128684_j52879637348574_1_alg».proof.Proof.LibMatmul
import proofs.«128684_j52879637348574_1_alg».proof.Proof.Product
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Matrix-product region 0: rows of `main_arg0` times `main_arg3` into `main_v17` -/

/-- What one grid point computes: the zero-accumulator product of its two loaded blocks (the rounding to bf16 on the way
    in is the identity on the extended reals), entry by entry. -/
theorem pay0_apply (x0 : Vec Ideal S5000x256 .f32) (x1 : Vec Ideal S256x256 .f32) (j : S5000x256.Idx) :
    k0_pay1 x0 x1 j = ∑ k : Fin 256, x0 (ix2 (n0 := 5000) (n1 := 256) (j 0) k) * x1 (ix2 (n0 := 256) (n1 := 256) k (j 1)) := by
  unfold k0_pay1
  refine (Ideal.matmul_constant_zero_apply dot_S5000x256_S256x256_S5000x256_1_0_0_1_n_n none _ _ j).trans ?_
  exact Cert.Layer.Matmul.plain_contr_sum dot_S5000x256_S256x256_S5000x256_1_0_0_1_n_n rfl rfl rfl rfl rfl rfl x0 x1 j

/-- The printed index maps over the grid: point t takes row block t of the left operand and of the result, and the one
    block of the weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … 5000·t + 4999 of the array. -/
theorem lhs0_apply (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → EReal) i := by
  obtain ⟨e0, e1, -, -, -, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The weights' block at every point is the whole matrix. -/
theorem rhs0_apply (c : Dev nD) (t : Fin cfg0.N) (y : S256x256.Idx) :
    (iblk0 V c 1 t : Vec Ideal S256x256 .f32) y = (V c main_arg3 : S256x256.Idx → EReal) y := by
  obtain ⟨-, -, e2, e3, -, -⟩ := idx0 t
  unfold iblk0
  rw [View.read_apply]
  show V c main_arg3 _ = V c main_arg3 _
  refine congrArg (V c main_arg3) (funext fun a => Fin.ext ?_)
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- What point t writes back is block t of the whole product of the two arrays as the region finds them. -/
theorem flushed0_eq (c : Dev nD) (t : Fin cfg0.N) :
    (dat0 V c).flushed 2 t = ((cfg0.win 2).blk t).view.read (Elt Ideal) (Cert.Gcn.rowsTimes (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨-, -, -, -, e4, e5⟩ := idx0 t
  funext j
  show k0_pay1 (iblk0 V c 0 t) (iblk0 V c 1 t) j = Cert.Gcn.rowsTimes (V c main_arg0) (V c main_arg3) (((cfg0.win 2).blk t).view.emb j)
  refine (pay0_apply (iblk0 V c 0 t) (iblk0 V c 1 t) j).trans ?_
  unfold Cert.Gcn.rowsTimes
  have r0 : ((((cfg0.win 2).blk t).view.emb j) 0).val = 5000 * t.val + (j 0).val := by
    show win0_2.index t (0 : Fin 2) * 5000 + 1 * (j 0).val = _; rw [e4]; omega
  have r1 : ((((cfg0.win 2).blk t).view.emb j) 1).val = (j 1).val := by
    show win0_2.index t (1 : Fin 2) * 256 + 1 * (j 1).val = _; rw [e5]; omega
  refine Finset.sum_congr rfl fun k _ => ?_
  refine congrArg₂ (· * ·) (lhs0_apply V c t _ _ r0 rfl) ((rhs0_apply V c t _).trans ?_)
  exact congrArg (V c main_arg3) (funext fun a => Fin.ext (by
    match a with
    | ⟨0, _⟩ => rfl
    | ⟨1, _⟩ => exact r1.symm))

/-- An index of the result array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v17).slice (win0_2.rect t)).set ↔ _
  rw [View.set_slice_whole, Rect.mem_set_unit]
  exact Iff.rfl

/-- The ten row blocks tile the result array: row r is in block r / 5000. -/
theorem cover0 (i : S50000x256.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 256 := (i 1).isLt
  refine ⟨⟨(i 0).val / 5000, by rw [hN]; omega⟩, flush0_2 _, ?_⟩
  rw [mem_blk0]
  obtain ⟨-, -, -, -, e4, e5⟩ := idx0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 256 ≤ (i 1).val ∧ (i 1).val < win0_2.index _ (1 : Fin 2) * 256 + 256; rw [e5]; omega

/-- The result array after the region: the whole product of the two arrays as the region finds them. -/
theorem final0 (c : Dev nD) : (dat0 V c).arrAt 2 cfg0.N = Cert.Gcn.rowsTimes (V c main_arg0) (V c main_arg3) :=
  (dat0 V c).arrAt_eq_of_cover 2 _ (fun t _ => flushed0_eq V c t) (cover0)

/-! ## Matrix-product region 1: rows of `main_v49` times `main_arg5` into `main_v50` -/

/-- What one grid point computes: the zero-accumulator product of its two loaded blocks (the rounding to bf16 on the way
    in is the identity on the extended reals; the shape cast is of a shape to itself), entry by entry. -/
theorem pay1_apply (x0 : Vec Ideal S5000x256 .f32) (x1 : Vec Ideal S256x256 .f32) (j : S5000x256.Idx) :
    k1_pay1 x0 x1 j = ∑ k : Fin 256, x0 (ix2 (n0 := 5000) (n1 := 256) (j 0) k) * x1 (ix2 (n0 := 256) (n1 := 256) k (j 1)) := by
  unfold k1_pay1
  simp only [shapeCast_self]
  refine (Ideal.matmul_constant_zero_apply dot_S5000x256_S256x256_S5000x256_1_0_0_1_n_n none _ _ j).trans ?_
  exact Cert.Layer.Matmul.plain_contr_sum dot_S5000x256_S256x256_S5000x256_1_0_0_1_n_n rfl rfl rfl rfl rfl rfl x0 x1 j

/-- The printed index maps over the grid: point t takes row block t of the left operand and of the result, and the one
    block of the weights. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … 5000·t + 4999 of the array. -/
theorem lhs1_apply (c : Dev nD) (t : Fin cfg1.N) (y : S5000x256.Idx) (i : S50000x256.Idx)
    (h0 : (i 0).val = 5000 * t.val + (y 0).val) (h1 : (i 1).val = (y 1).val) :
    (iblk1 V c 0 t : Vec Ideal S5000x256 .f32) y = (V c main_v49 : S50000x256.Idx → EReal) i := by
  obtain ⟨e0, e1, -, -, -, -⟩ := idx1 t
  unfold iblk1
  rw [View.read_apply]
  show V c main_v49 _ = V c main_v49 _
  refine congrArg (V c main_v49) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 256 + 1 * (y 1).val = (i 1).val; rw [e1, h1]; omega

/-- The weights' block at every point is the whole matrix. -/
theorem rhs1_apply (c : Dev nD) (t : Fin cfg1.N) (y : S256x256.Idx) :
    (iblk1 V c 1 t : Vec Ideal S256x256 .f32) y = (V c main_arg5 : S256x256.Idx → EReal) y := by
  obtain ⟨-, -, e2, e3, -, -⟩ := idx1 t
  unfold iblk1
  rw [View.read_apply]
  show V c main_arg5 _ = V c main_arg5 _
  refine congrArg (V c main_arg5) (funext fun a => Fin.ext ?_)
  match a with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

/-- What point t writes back is block t of the whole product of the two arrays as the region finds them. -/
theorem flushed1_eq (c : Dev nD) (t : Fin cfg1.N) :
    (dat1 V c).flushed 2 t = ((cfg1.win 2).blk t).view.read (Elt Ideal) (Cert.Gcn.rowsTimes (V c main_v49) (V c main_arg5)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨-, -, -, -, e4, e5⟩ := idx1 t
  funext j
  show k1_pay1 (iblk1 V c 0 t) (iblk1 V c 1 t) j = Cert.Gcn.rowsTimes (V c main_v49) (V c main_arg5) (((cfg1.win 2).blk t).view.emb j)
  refine (pay1_apply (iblk1 V c 0 t) (iblk1 V c 1 t) j).trans ?_
  unfold Cert.Gcn.rowsTimes
  have r0 : ((((cfg1.win 2).blk t).view.emb j) 0).val = 5000 * t.val + (j 0).val := by
    show win1_2.index t (0 : Fin 2) * 5000 + 1 * (j 0).val = _; rw [e4]; omega
  have r1 : ((((cfg1.win 2).blk t).view.emb j) 1).val = (j 1).val := by
    show win1_2.index t (1 : Fin 2) * 256 + 1 * (j 1).val = _; rw [e5]; omega
  refine Finset.sum_congr rfl fun k _ => ?_
  refine congrArg₂ (· * ·) (lhs1_apply V c t _ _ r0 rfl) ((rhs1_apply V c t _).trans ?_)
  exact congrArg (V c main_arg5) (funext fun a => Fin.ext (by
    match a with
    | ⟨0, _⟩ => rfl
    | ⟨1, _⟩ => exact r1.symm))

/-- An index of the result array is in point t's block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v50).slice (win1_2.rect t)).set ↔ _
  rw [View.set_slice_whole, Rect.mem_set_unit]
  exact Iff.rfl

/-- The ten row blocks tile the result array: row r is in block r / 5000. -/
theorem cover1 (i : S50000x256.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 256 := (i 1).isLt
  refine ⟨⟨(i 0).val / 5000, by rw [hN]; omega⟩, flush1_2 _, ?_⟩
  rw [mem_blk1]
  obtain ⟨-, -, -, -, e4, e5⟩ := idx1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; dsimp only; omega
  | ⟨1, _⟩ => show win1_2.index _ (1 : Fin 2) * 256 ≤ (i 1).val ∧ (i 1).val < win1_2.index _ (1 : Fin 2) * 256 + 256; rw [e5]; omega

/-- The result array after the region: the whole product of the two arrays as the region finds them. -/
theorem final1 (c : Dev nD) : (dat1 V c).arrAt 2 cfg1.N = Cert.Gcn.rowsTimes (V c main_v49) (V c main_arg5) :=
  (dat1 V c).arrAt_eq_of_cover 2 _ (fun t _ => flushed1_eq V c t) (cover1)

/-! ## Matrix-product region 2: rows of `main_v82` times `main_arg7` into `main_v83` -/

/-- What one grid point computes: the zero-accumulator product of its two loaded blocks (the rounding to bf16 on the way
    in is the identity on the extended reals; the shape cast is of a shape to itself), entry by entry. -/
theorem pay2_apply (x0 : Vec Ideal S5000x256 .f32) (x1 : Vec Ideal S256x256 .f32) (j : S5000x256.Idx) :
    k2_pay1 x0 x1 j = ∑ k : Fin 256, x0 (ix2 (n0 := 5000) (n1 := 256) (j 0) k) * x1 (ix2 (n0 := 256) (n1 := 256) k (j 1)) := by
  unfold k2_pay1
  simp only [shapeCast_self]
  refine (Ideal.matmul_constant_zero_apply dot_S5000x256_S256x256_S5000x256_1_0_0_1_n_n none _ _ j).trans ?_
  exact Cert.Layer.Matmul.plain_contr_sum dot_S5000x256_S256x256_S5000x256_1_0_0_1_n_n rfl rfl rfl rfl rfl rfl x0 x1 j

/-- The printed index maps over the grid: point t takes row block t of the left operand and of the result, and the one
    block of the weights. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000·t … 5000·t + 4999 of the array. -/
theorem lhs2_apply (c : Dev nD) (t : Fin cfg2.N) (y : S5000x256.Idx) (i : S50000x256.Idx)
    (h0 : (i 0).val = 5000 * t.val + (y 0).val) (h1 : (i 1).val = (y 1).val) :
    (iblk2 V c 0 t : Vec Ideal S5000x256 .f32) y = (V c main_v82 : S50000x256.Idx → EReal) i := by
  obtain ⟨e0, e1, -, -, -, -⟩ := idx2 t
  unfold iblk2
  rw [View.read_apply]
  show V c main_v82 _ = V c main_v82 _
  refine congrArg (V c main_v82) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 256 + 1 * (y 1).val = (i 1).val; rw [e1, h1]; omega

/-- The weights' block at every point is the whole matrix. -/
theorem rhs2_apply (c : Dev nD) (t : Fin cfg2.N) (y : S256x256.Idx) :
    (iblk2 V c 1 t : Vec Ideal S256x256 .f32) y = (V c main_arg7 : S256x256.Idx → EReal) y := by
  obtain ⟨-, -, e2, e3, -, -⟩ := idx2 t
  unfold iblk2
  rw [View.read_apply]
  show V c main_arg7 _ = V c main_arg7 _
  refine congrArg (V c main_arg7) (funext fun a => Fin.ext ?_)
  match a with
  | ⟨0, _⟩ => show win2_1.index t (0 : Fin 2) * 256 + 1 * (y 0).val = (y 0).val; rw [e2]; omega
  | ⟨1, _⟩ => show win2_1.index t (1 : Fin 2) * 256 + 1 * (y 1).val = (y 1).val; rw [e3]; omega

/-- What point t writes back is block t of the whole product of the two arrays as the region finds them. -/
theorem flushed2_eq (c : Dev nD) (t : Fin cfg2.N) :
    (dat2 V c).flushed 2 t = ((cfg2.win 2).blk t).view.read (Elt Ideal) (Cert.Gcn.rowsTimes (V c main_v82) (V c main_arg7)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨-, -, -, -, e4, e5⟩ := idx2 t
  funext j
  show k2_pay1 (iblk2 V c 0 t) (iblk2 V c 1 t) j = Cert.Gcn.rowsTimes (V c main_v82) (V c main_arg7) (((cfg2.win 2).blk t).view.emb j)
  refine (pay2_apply (iblk2 V c 0 t) (iblk2 V c 1 t) j).trans ?_
  unfold Cert.Gcn.rowsTimes
  have r0 : ((((cfg2.win 2).blk t).view.emb j) 0).val = 5000 * t.val + (j 0).val := by
    show win2_2.index t (0 : Fin 2) * 5000 + 1 * (j 0).val = _; rw [e4]; omega
  have r1 : ((((cfg2.win 2).blk t).view.emb j) 1).val = (j 1).val := by
    show win2_2.index t (1 : Fin 2) * 256 + 1 * (j 1).val = _; rw [e5]; omega
  refine Finset.sum_congr rfl fun k _ => ?_
  refine congrArg₂ (· * ·) (lhs2_apply V c t _ _ r0 rfl) ((rhs2_apply V c t _).trans ?_)
  exact congrArg (V c main_arg7) (funext fun a => Fin.ext (by
    match a with
    | ⟨0, _⟩ => rfl
    | ⟨1, _⟩ => exact r1.symm))

/-- An index of the result array is in point t's block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v83).slice (win2_2.rect t)).set ↔ _
  rw [View.set_slice_whole, Rect.mem_set_unit]
  exact Iff.rfl

/-- The ten row blocks tile the result array: row r is in block r / 5000. -/
theorem cover2 (i : S50000x256.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 256 := (i 1).isLt
  refine ⟨⟨(i 0).val / 5000, by rw [hN]; omega⟩, flush2_2 _, ?_⟩
  rw [mem_blk2]
  obtain ⟨-, -, -, -, e4, e5⟩ := idx2 ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; dsimp only; omega
  | ⟨1, _⟩ => show win2_2.index _ (1 : Fin 2) * 256 ≤ (i 1).val ∧ (i 1).val < win2_2.index _ (1 : Fin 2) * 256 + 256; rw [e5]; omega

/-- The result array after the region: the whole product of the two arrays as the region finds them. -/
theorem final2 (c : Dev nD) : (dat2 V c).arrAt 2 cfg2.N = Cert.Gcn.rowsTimes (V c main_v82) (V c main_arg7) :=
  (dat2 V c).arrAt_eq_of_cover 2 _ (fun t _ => flushed2_eq V c t) (cover2)

end Cert.KernelIdeal.Whole

end
-- ==== Proof.HostKeep.lean ====
/-
  What each host stretch of the idealized kernel program leaves unchanged.

  From any buffer contents `U`, the contents after a stretch of host operations are a fold over its operations, each
  rewriting the one buffer it writes.  Listing, per stretch, the buffers its operations write, a buffer outside the list keeps
  its contents through the stretch.
-/
import proofs.«128684_j52879637348574_1_alg».proof.Proof.Gen.KernelIdeal.Launch
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- The buffers the operations of `hostOps0` write. -/
abbrev wr_hostOps0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt Ideal))).Forall fun op => op.writes ⊆ (wr_hostOps0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps0 (U : Valuation τ sig (Elt Ideal)) (r : Ref sig .tc) (h : r ∉ wr_hostOps0 := by decide) :
    after hostOps0 U (Proc.devRef .tc r) = U (Proc.devRef .tc r) :=
  after_of_writes_sub hostOps0 U hostOps0_writes h

/-- The buffers the operations of `hostOps0_1` write. -/
abbrev wr_hostOps0_1 : List (Ref sig .tc) := [main_call0_v0, main_call0_v1, main_v16]
theorem hostOps0_1_writes : (hostOps0_1 : List (HloOp τ sig (Elt Ideal))).Forall fun op => op.writes ⊆ (wr_hostOps0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps0_1 (U : Valuation τ sig (Elt Ideal)) (r : Ref sig .tc) (h : r ∉ wr_hostOps0_1 := by decide) :
    after hostOps0_1 U (Proc.devRef .tc r) = U (Proc.devRef .tc r) :=
  after_of_writes_sub hostOps0_1 U hostOps0_1_writes h

/-- The buffers the operations of `hostOps1` write. -/
abbrev wr_hostOps1 : List (Ref sig .tc) := [main_c, main_v18, main_v19, main_c_4, main_v20, main_v21, main_v22, main_v23, main_v24, main_c_5, main_v25, main_v26, main_c_6, main_v27, main_v28, main_v29, main_v30, main_v31, main_v32, main_c_7, main_v33, main_v34, main_c_8, main_v35, main_v36, main_v37, main_v38, main_v39, main_v40, main_v41, main_v42, main_cst_9, main_v43, main_v44, main_v45, main_v46, main_v47, main_v48]
theorem hostOps1_writes : (hostOps1 : List (HloOp τ sig (Elt Ideal))).Forall fun op => op.writes ⊆ (wr_hostOps1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps1 (U : Valuation τ sig (Elt Ideal)) (r : Ref sig .tc) (h : r ∉ wr_hostOps1 := by decide) :
    after hostOps1 U (Proc.devRef .tc r) = U (Proc.devRef .tc r) :=
  after_of_writes_sub hostOps1 U hostOps1_writes h

/-- The buffers the operations of `hostOps1_1` write. -/
abbrev wr_hostOps1_1 : List (Ref sig .tc) := [main_call1_cst, main_call1_v0, main_v49]
theorem hostOps1_1_writes : (hostOps1_1 : List (HloOp τ sig (Elt Ideal))).Forall fun op => op.writes ⊆ (wr_hostOps1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps1_1 (U : Valuation τ sig (Elt Ideal)) (r : Ref sig .tc) (h : r ∉ wr_hostOps1_1 := by decide) :
    after hostOps1_1 U (Proc.devRef .tc r) = U (Proc.devRef .tc r) :=
  after_of_writes_sub hostOps1_1 U hostOps1_1_writes h

/-- The buffers the operations of `hostOps2` write. -/
abbrev wr_hostOps2 : List (Ref sig .tc) := [main_c_10, main_v51, main_v52, main_c_11, main_v53, main_v54, main_v55, main_v56, main_v57, main_c_12, main_v58, main_v59, main_c_13, main_v60, main_v61, main_v62, main_v63, main_v64, main_v65, main_c_14, main_v66, main_v67, main_c_15, main_v68, main_v69, main_v70, main_v71, main_v72, main_v73, main_v74, main_v75, main_cst_16, main_v76, main_v77, main_v78, main_v79, main_v80, main_v81]
theorem hostOps2_writes : (hostOps2 : List (HloOp τ sig (Elt Ideal))).Forall fun op => op.writes ⊆ (wr_hostOps2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps2 (U : Valuation τ sig (Elt Ideal)) (r : Ref sig .tc) (h : r ∉ wr_hostOps2 := by decide) :
    after hostOps2 U (Proc.devRef .tc r) = U (Proc.devRef .tc r) :=
  after_of_writes_sub hostOps2 U hostOps2_writes h

/-- The buffers the operations of `hostOps2_1` write. -/
abbrev wr_hostOps2_1 : List (Ref sig .tc) := [main_call2_cst, main_call2_v0, main_v82]
theorem hostOps2_1_writes : (hostOps2_1 : List (HloOp τ sig (Elt Ideal))).Forall fun op => op.writes ⊆ (wr_hostOps2_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps2_1 (U : Valuation τ sig (Elt Ideal)) (r : Ref sig .tc) (h : r ∉ wr_hostOps2_1 := by decide) :
    after hostOps2_1 U (Proc.devRef .tc r) = U (Proc.devRef .tc r) :=
  after_of_writes_sub hostOps2_1 U hostOps2_1_writes h

/-- The buffers the operations of `hostOps3` write. -/
abbrev wr_hostOps3 : List (Ref sig .tc) := [main_c_17, main_v84, main_v85, main_c_18, main_v86, main_v87, main_v88, main_v89, main_v90, main_c_19, main_v91, main_v92, main_c_20, main_v93, main_v94, main_v95, main_v96, main_v97, main_v98, main_c_21, main_v99, main_v100, main_c_22, main_v101, main_v102, main_v103, main_v104, main_v105, main_v106, main_v107, main_v108, main_cst_23, main_v109, main_v110, main_v111, main_v112, main_v113, main_v114]
theorem hostOps3_writes : (hostOps3 : List (HloOp τ sig (Elt Ideal))).Forall fun op => op.writes ⊆ (wr_hostOps3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps3 (U : Valuation τ sig (Elt Ideal)) (r : Ref sig .tc) (h : r ∉ wr_hostOps3 := by decide) :
    after hostOps3 U (Proc.devRef .tc r) = U (Proc.devRef .tc r) :=
  after_of_writes_sub hostOps3 U hostOps3_writes h

/-- The buffers the operations of `hostOps3_1` write. -/
abbrev wr_hostOps3_1 : List (Ref sig .tc) := [main_call3_cst, main_call3_v0, main_v115]
theorem hostOps3_1_writes : (hostOps3_1 : List (HloOp τ sig (Elt Ideal))).Forall fun op => op.writes ⊆ (wr_hostOps3_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps3_1 (U : Valuation τ sig (Elt Ideal)) (r : Ref sig .tc) (h : r ∉ wr_hostOps3_1 := by decide) :
    after hostOps3_1 U (Proc.devRef .tc r) = U (Proc.devRef .tc r) :=
  after_of_writes_sub hostOps3_1 U hostOps3_1_writes h

/-- The buffers the operations of `hostOps3_2` write. -/
abbrev wr_hostOps3_2 : List (Ref sig .tc) := [main_cst_24, main_v116, main_v117, main_v118, main_cst_25, main_v119, main_cst_26, main_v120, main_v121, main_v122, main_cst_27, main_v123, main_v124, main_v125, main_v126, main_v127, main_v128, main_v129, main_v130, main_v131]
theorem hostOps3_2_writes : (hostOps3_2 : List (HloOp τ sig (Elt Ideal))).Forall fun op => op.writes ⊆ (wr_hostOps3_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps3_2 (U : Valuation τ sig (Elt Ideal)) (r : Ref sig .tc) (h : r ∉ wr_hostOps3_2 := by decide) :
    after hostOps3_2 U (Proc.devRef .tc r) = U (Proc.devRef .tc r) :=
  after_of_writes_sub hostOps3_2 U hostOps3_2_writes h

/-- The buffers the operations of `hostOps3_3` write. -/
abbrev wr_hostOps3_3 : List (Ref sig .tc) := [main_call4_cst, main_call4_v0, main_v132]
theorem hostOps3_3_writes : (hostOps3_3 : List (HloOp τ sig (Elt Ideal))).Forall fun op => op.writes ⊆ (wr_hostOps3_3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer none of them writes keeps its contents. -/
theorem keep_hostOps3_3 (U : Valuation τ sig (Elt Ideal)) (r : Ref sig .tc) (h : r ∉ wr_hostOps3_3 := by decide) :
    after hostOps3_3 U (Proc.devRef .tc r) = U (Proc.devRef .tc r) :=
  after_of_writes_sub hostOps3_3 U hostOps3_3_writes h

end Cert.KernelIdeal.Whole

end
-- ==== Proof.Spec.lean ====
/-
  A three-layer graph convolution network with a mean-pooling read-out, as functions of whole arrays.

  The graph has 50000 nodes and 800000 directed edges, to which one self-loop per node is appended (850000 edge
  slots).  `srcOf` / `dstOf` are the edge slots' end points; `invSqrtDeg` is, per node, deg^(-1/2) of the number of slots
  arriving at it (0 where there is none).  One layer takes the node features already multiplied by the layer's weight
  matrix, `hw`, and forms, for every node v, the sum over the slots e arriving at v of
  hw[src e] · (invSqrtDeg[src e] · invSqrtDeg[dst e]), adds the bias row and clamps below at 0 (`aggregate`).  The read-out (`readout`)
  sums the last layer's rows per graph id, divides by the clamped number of nodes with that id, and applies two dense
  layers.  The only thing the network leaves open is the product of the 50000×256 features with a 256×256 weight
  matrix, which it takes as a parameter (`network`): the two programs compared differ in nothing else.

  `dotGeneral_eq_rowsTimes` says that the host's dot_general with these dimension numbers is, on the extended reals, the
  product written as a plain sum over the shared axis (`rowsTimes`).
-/
import proofs.«128684_j52879637348574_1_alg».proof.ReferenceIdeal
import proofs.«128684_j52879637348574_1_alg».proof.Proof.Gen.ReferenceIdeal
import proofs.«128684_j52879637348574_1_alg».proof.Proof.LibMatmul
import proofs.«128684_j52879637348574_1_alg».proof.Proof.Product
import Idealize.ShloMosaic.Lib.ValueIdx
import Idealize.ShloMosaic.PureOps.Ideal.Laws

noncomputable section

open scoped BigOperators

namespace Cert.Gcn

open Idealize.ShloMosaic Idealize.ShloMosaic.ValueIdx
open Cert.ReferenceIdeal Cert.ReferenceIdeal.Gen

variable {F : FTy → Type} [FloatOps F]

/-- An integer array of a shape, and a float array of a shape over a reading `F` of the floats (the functions below are
    stated at any reading; the comparison of the two programs uses them at the extended reals). -/
abbrev IV (s : Shape) : Type := IVec s 32
abbrev FV (F : FTy → Type) (s : Shape) : Type := FVec F s .f32

/-- The 850000 edge slots' sources: row 0 of the edge list, then the nodes themselves (the self-loops). -/
def srcOf (ei : IV S2x800000) : IV S850000 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edge slots' destinations: row 1 of the edge list, then the nodes themselves. -/
def dstOf (ei : IV S2x800000) : IV S850000 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Per node, the number of edge slots arriving at it: ones scattered and added at the destinations. -/
def degree (dst : IV S850000) : FV F S50000 :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- Per node, deg^(-1/2) where the degree is positive (the square root taken of max(deg, 1)), 0 elsewhere. -/
def invSqrtDeg (dst : IV S850000) : FV F S50000 :=
  select (cmpf (F := F) .ogt (degree dst) (broadcastInDim S50000 ![] bcast_S_S50000 (constant S_ .f32 0x00000000#32))) (Host.rsqrt (maximumf (degree dst) (broadcastInDim S50000 ![] bcast_S_S50000 (constant S_ .f32 0x3F800000#32)))) (broadcastInDim S50000 ![] bcast_S_S50000 (id (constant S_ .f32 0x00000000#32)))

/-- Node ids as gather positions: a negative id counts from the end (50000 is added to it); as a column. -/
def wrapped (v : IV S850000) : IV S850000x1 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- Per edge slot, the symmetric normalisation invSqrtDeg[src] · invSqrtDeg[dst]. -/
def edgeNorm (isd : FV F S50000) (src dst : IV S850000) : FV F S850000 :=
  mulf (Host.gather gather_S50000_S850000x1_S850000_n_0_n_n_0_1_1 isd (wrapped src)) (Host.gather gather_S50000_S850000x1_S850000_n_0_n_n_0_1_1 isd (wrapped dst))

/-- One layer after its dense product `hw`, before the clamp: per node the normalised rows of `hw` summed over the arriving
    edge slots, plus the bias row. -/
def preact (hw : FV F S50000x256) (isd : FV F S50000) (src dst : IV S850000) (b : FV F S256) : FV F S50000x256 :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 hw (wrapped src)) (broadcastInDim S850000x256 ![0, 1] bcast_S850000x1_S850000x256_0_1 (broadcastInDim S850000x1 ![0] bcast_S850000_S850000x1_0 (edgeNorm isd src dst))))) (broadcastInDim S50000x256 ![0, 1] bcast_S1x256_S50000x256_0_1 (broadcastInDim S1x256 ![1] bcast_S256_S1x256_1 b))

/-- One layer after its dense product: `preact` clamped below at 0. -/
def aggregate (hw : FV F S50000x256) (isd : FV F S50000) (src dst : IV S850000) (b : FV F S256) : FV F S50000x256 :=
  maximumf (preact hw isd src dst b) (broadcastInDim S50000x256 ![] bcast_S_S50000x256 (constant S_ .f32 0x00000000#32))

/-- The read-out's first dense layer before its clamp: rows summed per graph id and divided by max(count, 1), times the first
    matrix, plus its bias row. -/
def hidden (h : FV F S50000x256) (batch : IV S50000) (fc1w : FV F S256x256) (fc1b : FV F S256) : FV F S64x256 :=
  addf (Host.dotGeneral dot_S64x256_S256x256_S64x256_1_0_0_1_n_n none (Host.divf (Host.scatterAdd scatter_S64x256_S50000x1_S50000x256_1_0_0_1 (broadcastInDim S64x256 ![] bcast_S_S64x256 (constant S_ .f32 0x00000000#32)) (broadcastInDim S50000x1 ![0] bcast_S50000_S50000x1_0 batch) h) (broadcastInDim S64x256 ![0, 1] bcast_S64x1_S64x256_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))) fc1w) (broadcastInDim S64x256 ![0, 1] bcast_S1x256_S64x256_0_1 (broadcastInDim S1x256 ![1] bcast_S256_S1x256_1 fc1b))

/-- The read-out: the first dense layer clamped below at 0, times the second matrix, plus its bias row. -/
def readout (h : FV F S50000x256) (batch : IV S50000) (fc1w : FV F S256x256) (fc1b : FV F S256) (fc2w : FV F S256x128) (fc2b : FV F S128) : FV F S64x128 :=
  addf (Host.dotGeneral dot_S64x256_S256x128_S64x128_1_0_0_1_n_n none (maximumf (hidden h batch fc1w fc1b) (broadcastInDim S64x256 ![] bcast_S_S64x256 (constant S_ .f32 0x00000000#32))) fc2w) (broadcastInDim S64x128 ![0, 1] bcast_S1x128_S64x128_0_1 (broadcastInDim S1x128 ![1] bcast_S128_S1x128_1 fc2b))

/-- The whole network over a given product of node features with a weight matrix. -/
def network (times : FV F S50000x256 → FV F S256x256 → FV F S50000x256)
    (x : FV F S50000x256) (ei : IV S2x800000) (batch : IV S50000) (w0 : FV F S256x256) (b0 : FV F S256) (w1 : FV F S256x256) (b1 : FV F S256)
    (w2 : FV F S256x256) (b2 : FV F S256) (fc1w : FV F S256x256) (fc1b : FV F S256) (fc2w : FV F S256x128) (fc2b : FV F S128) : FV F S64x128 :=
  readout
    (aggregate (times
      (aggregate (times
        (aggregate (times x w0) (invSqrtDeg (dstOf ei)) (srcOf ei) (dstOf ei) b0) w1)
        (invSqrtDeg (dstOf ei)) (srcOf ei) (dstOf ei) b1) w2)
      (invSqrtDeg (dstOf ei)) (srcOf ei) (dstOf ei) b2)
    batch fc1w fc1b fc2w fc2b

/-- On the extended reals the host's dot_general over (rows × shared)·(shared × columns) is that sum. -/
theorem dotGeneral_eq_rowsTimes (x : FV Ideal S50000x256) (w : FV Ideal S256x256) :
    Host.dotGeneral (F := Ideal) dot_S50000x256_S256x256_S50000x256_1_0_0_1_n_n none x w = rowsTimes x w := by
  funext j
  simp only [Host.dotGeneral]
  rw [Ideal.dotGeneral_apply]
  exact Cert.Layer.Matmul.plain_contr_sum dot_S50000x256_S256x256_S50000x256_1_0_0_1_n_n rfl rfl rfl rfl rfl rfl x w j

end Cert.Gcn

end
-- ==== Proof.HostOpen.lean ====
/-
  The opening host stretch of the idealized kernel program, read as functions of whole arrays.

  From any buffer contents `U`, the opening stretch leaves: the edge slots' sources and destinations (row 0 and row 1 of the edge
  list, each followed by the node ids: the self-loops); whether a node's degree is positive; the degree clamped below at 1, to the
  power -1/2; and a zero.  The three-operation stretch after it selects, per node, the power where the degree is positive and the
  zero elsewhere: `invSqrtDeg`.
-/
import proofs.«128684_j52879637348574_1_alg».proof.Proof.Gen.KernelIdeal.Launch
import proofs.«128684_j52879637348574_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (U : Valuation τ sig (Elt Ideal))

set_option maxHeartbeats 1600000 in
/-- The edge slots' sources. -/
theorem opening_src : after hostOps0 U (Proc.devRef .tc main_v3)
    = Cert.Gcn.srcOf (U (Proc.devRef .tc main_arg1)) := by
  simp only [hostOps0]
  after_results
  rfl

set_option maxHeartbeats 1600000 in
/-- The edge slots' destinations. -/
theorem opening_dst : after hostOps0 U (Proc.devRef .tc main_v6)
    = Cert.Gcn.dstOf (U (Proc.devRef .tc main_arg1)) := by
  simp only [hostOps0]
  after_results
  rfl

set_option maxHeartbeats 1600000 in
/-- Per node, whether an edge slot arrives at it. -/
theorem opening_pos : after hostOps0 U (Proc.devRef .tc main_v12)
    = cmpf (F := Ideal) .ogt (Cert.Gcn.degree (F := Ideal) (Cert.Gcn.dstOf (U (Proc.devRef .tc main_arg1)))) (broadcastInDim Cert.ReferenceIdeal.S50000 ![] Cert.ReferenceIdeal.Gen.bcast_S_S50000 (constant Cert.ReferenceIdeal.S_ .f32 0x00000000#32)) := by
  simp only [hostOps0]
  after_results
  rfl

set_option maxHeartbeats 1600000 in
/-- Per node, max(deg, 1)^(-1/2). -/
theorem opening_rsqrt : after hostOps0 U (Proc.devRef .tc main_v15)
    = Host.rsqrt (F := Ideal) (maximumf (Cert.Gcn.degree (F := Ideal) (Cert.Gcn.dstOf (U (Proc.devRef .tc main_arg1)))) (broadcastInDim Cert.ReferenceIdeal.S50000 ![] Cert.ReferenceIdeal.Gen.bcast_S_S50000 (constant Cert.ReferenceIdeal.S_ .f32 0x3F800000#32))) := by
  simp only [hostOps0]
  after_results
  rfl

set_option maxHeartbeats 1600000 in
/-- The zero the selection falls back to. -/
theorem opening_zero : after hostOps0 U (Proc.devRef .tc main_cst_3)
    = constant (F := Ideal) Cert.ReferenceIdeal.S_ .f32 0x00000000#32 := by
  simp only [hostOps0]
  after_results

set_option maxHeartbeats 1600000 in
/-- The selection: per node the power where the degree is positive, the zero elsewhere. -/
theorem where_val : after hostOps0_1 U (Proc.devRef .tc main_v16)
    = select (U (Proc.devRef .tc main_v12)) (U (Proc.devRef .tc main_v15)) (broadcastInDim Cert.ReferenceIdeal.S50000 ![] Cert.ReferenceIdeal.Gen.bcast_S_S50000 (id (U (Proc.devRef .tc main_cst_3)))) := by
  simp only [hostOps0_1]
  after_results
  rfl

end Cert.KernelIdeal.Whole

end
-- ==== Proof.HostLayer.lean ====
/-
  The host stretches after the first and the second matrix-product region, read as functions of whole arrays.

  From any buffer contents `U`, the stretch after a region forms, per node, the sum over the arriving edge slots of the rows of
  the region's product scaled by the slot's normalisation, and adds the layer's bias row (`preact`); the three-operation stretch
  after it clamps the result below at 0.
-/
import proofs.«128684_j52879637348574_1_alg».proof.Proof.Gen.KernelIdeal.Launch
import proofs.«128684_j52879637348574_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (U : Valuation τ sig (Elt Ideal))

set_option maxHeartbeats 1600000 in
/-- Layer 1 before its clamp: the aggregation of the region's product over the edge slots, plus the bias row. -/
theorem layer1_pre : after hostOps1 U (Proc.devRef .tc main_v48)
    = Cert.Gcn.preact (F := Ideal) (U (Proc.devRef .tc main_v17)) (U (Proc.devRef .tc main_v16)) (U (Proc.devRef .tc main_v3)) (U (Proc.devRef .tc main_v6)) (U (Proc.devRef .tc main_arg4)) := by
  simp only [hostOps1]
  after_results_simp
  rfl

set_option maxHeartbeats 1600000 in
/-- Layer 1's clamp below at 0. -/
theorem layer1_relu : after hostOps1_1 U (Proc.devRef .tc main_v49)
    = maximumf (F := Ideal) (U (Proc.devRef .tc main_v48)) (broadcastInDim Cert.ReferenceIdeal.S50000x256 ![] Cert.ReferenceIdeal.Gen.bcast_S_S50000x256 (constant Cert.ReferenceIdeal.S_ .f32 0x00000000#32)) := by
  simp only [hostOps1_1]
  after_results
  rfl

set_option maxHeartbeats 1600000 in
/-- Layer 2 before its clamp: the aggregation of the region's product over the edge slots, plus the bias row. -/
theorem layer2_pre : after hostOps2 U (Proc.devRef .tc main_v81)
    = Cert.Gcn.preact (F := Ideal) (U (Proc.devRef .tc main_v50)) (U (Proc.devRef .tc main_v16)) (U (Proc.devRef .tc main_v3)) (U (Proc.devRef .tc main_v6)) (U (Proc.devRef .tc main_arg6)) := by
  simp only [hostOps2]
  after_results_simp
  rfl

set_option maxHeartbeats 1600000 in
/-- Layer 2's clamp below at 0. -/
theorem layer2_relu : after hostOps2_1 U (Proc.devRef .tc main_v82)
    = maximumf (F := Ideal) (U (Proc.devRef .tc main_v81)) (broadcastInDim Cert.ReferenceIdeal.S50000x256 ![] Cert.ReferenceIdeal.Gen.bcast_S_S50000x256 (constant Cert.ReferenceIdeal.S_ .f32 0x00000000#32)) := by
  simp only [hostOps2_1]
  after_results
  rfl

end Cert.KernelIdeal.Whole

end
-- ==== Proof.HostClose.lean ====
/-
  The closing host stretches of the idealized kernel program, read as functions of whole arrays.

  After the third region: the third layer's aggregation and clamp, as for the first two; then the read-out's first dense layer
  of the per-graph means (`hidden`), its clamp, and the second dense layer.
-/
import proofs.«128684_j52879637348574_1_alg».proof.Proof.Gen.KernelIdeal.Launch
import proofs.«128684_j52879637348574_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (U : Valuation τ sig (Elt Ideal))

set_option maxHeartbeats 1600000 in
/-- Layer 3 before its clamp: the aggregation of the region's product over the edge slots, plus the bias row. -/
theorem layer3_pre : after hostOps3 U (Proc.devRef .tc main_v114)
    = Cert.Gcn.preact (F := Ideal) (U (Proc.devRef .tc main_v83)) (U (Proc.devRef .tc main_v16)) (U (Proc.devRef .tc main_v3)) (U (Proc.devRef .tc main_v6)) (U (Proc.devRef .tc main_arg8)) := by
  simp only [hostOps3]
  after_results_simp
  rfl

set_option maxHeartbeats 1600000 in
/-- Layer 3's clamp below at 0. -/
theorem layer3_relu : after hostOps3_1 U (Proc.devRef .tc main_v115)
    = maximumf (F := Ideal) (U (Proc.devRef .tc main_v114)) (broadcastInDim Cert.ReferenceIdeal.S50000x256 ![] Cert.ReferenceIdeal.Gen.bcast_S_S50000x256 (constant Cert.ReferenceIdeal.S_ .f32 0x00000000#32)) := by
  simp only [hostOps3_1]
  after_results
  rfl

set_option maxHeartbeats 1600000 in
/-- The read-out's first dense layer of the per-graph means, before its clamp. -/
theorem closing_hidden : after hostOps3_2 U (Proc.devRef .tc main_v131)
    = Cert.Gcn.hidden (F := Ideal) (U (Proc.devRef .tc main_v115)) (U (Proc.devRef .tc main_arg2)) (U (Proc.devRef .tc main_arg9)) (U (Proc.devRef .tc main_arg10)) := by
  simp only [hostOps3_2]
  after_results_simp
  rfl

set_option maxHeartbeats 1600000 in
/-- Its clamp below at 0. -/
theorem closing_relu : after hostOps3_3 U (Proc.devRef .tc main_v132)
    = maximumf (F := Ideal) (U (Proc.devRef .tc main_v131)) (broadcastInDim Cert.ReferenceIdeal.S64x256 ![] Cert.ReferenceIdeal.Gen.bcast_S_S64x256 (constant Cert.ReferenceIdeal.S_ .f32 0x00000000#32)) := by
  simp only [hostOps3_3]
  after_results
  rfl

set_option maxHeartbeats 1600000 in
/-- The second dense layer. -/
theorem closing_out : after hostOps3_4 U (Proc.devRef .tc main_v136)
    = addf (F := Ideal) (Host.dotGeneral (φ₁ := .f32) (φ₂ := .f32) Cert.ReferenceIdeal.dot_S64x256_S256x128_S64x128_1_0_0_1_n_n none (U (Proc.devRef .tc main_v132)) (U (Proc.devRef .tc main_arg11))) (broadcastInDim Cert.ReferenceIdeal.S64x128 ![0, 1] Cert.ReferenceIdeal.Gen.bcast_S1x128_S64x128_0_1 (broadcastInDim Cert.ReferenceIdeal.S1x128 ![1] Cert.ReferenceIdeal.Gen.bcast_S128_S1x128_1 (U (Proc.devRef .tc main_arg12)))) := by
  simp only [hostOps3_4]
  after_results
  rfl

end Cert.KernelIdeal.Whole

end
-- ==== Proof.KernelRun.lean ====
/-
  The idealized kernel program's run with its RESULT kept.

  @main is fourteen segments: stretches of host operations and three matrix-product regions.  The buffer contents at the
  segment boundaries form a chain from the launch memory to the contents at the return, and every execution ends with each
  unscoped buffer holding the last link of that chain.  The frame claim reads off the last link only the thirteen argument
  arrays; here the result array, @main's value %136, is read off it as well, so that what the program computes can be
  stated: the result is the last boundary's contents at that buffer.
-/
import proofs.«128684_j52879637348574_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v136) = W14 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v136 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.Whole

end
-- ==== Proof.KernelValue.lean ====
/-
  What the idealized kernel program computes: the network over the plain-sum product.

  The buffer contents at the segment boundaries are followed from the launch to the return.  The opening stretch leaves the
  edge slots' end points and the per-node deg^(-1/2); no later stretch or region writes them, nor any argument array, so each
  later stretch reads them as the opening stretch left them.  Each matrix-product region leaves the whole product of its two
  arrays (the features reaching it and a weight matrix), the stretches after it one layer's aggregation of that product and its
  clamp, and the closing stretches the read-out of the third layer.  Put together, the result array holds `network rowsTimes`
  of the thirteen arguments.
-/
import proofs.«128684_j52879637348574_1_alg».proof.Proof.RegionValue
import proofs.«128684_j52879637348574_1_alg».proof.Proof.HostKeep
import proofs.«128684_j52879637348574_1_alg».proof.Proof.HostOpen
import proofs.«128684_j52879637348574_1_alg».proof.Proof.HostLayer
import proofs.«128684_j52879637348574_1_alg».proof.Proof.HostClose
import proofs.«128684_j52879637348574_1_alg».proof.Proof.KernelRun

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Gcn (srcOf dstOf invSqrtDeg preact aggregate hidden readout network rowsTimes)

variable (m : (ℓ : Loc nD τ sig) → Buf (Elt Ideal) ℓ) (ρ : Dev nD → PrngReg) (c : Dev nD)

/-! ## Buffers that keep their contents, boundary by boundary -/

/-- Through the opening stretch, from the launch. -/
theorem W1_keep (r : Ref sig .tc) (h0 : r ∉ wr_hostOps0 := by decide) :
    W1 m ρ c (Proc.devRef .tc r) = m ((c : Thread nD τ).loc r) :=
  (keep_hostOps0 _ r h0).trans rfl

/-- Through the selection after the opening stretch. -/
theorem W2_to_W1 (r : Ref sig .tc) (h1 : r ∉ wr_hostOps0_1 := by decide) :
    W2 m ρ c (Proc.devRef .tc r) = W1 m ρ c (Proc.devRef .tc r) :=
  keep_hostOps0_1 _ r h1

/-- From the launch to the first region's entry. -/
theorem W2_keep (r : Ref sig .tc) (h0 : r ∉ wr_hostOps0 := by decide) (h1 : r ∉ wr_hostOps0_1 := by decide) :
    W2 m ρ c (Proc.devRef .tc r) = m ((c : Thread nD τ).loc r) :=
  (W2_to_W1 m ρ c r h1).trans (W1_keep m ρ c r h0)

/-- Through the first region (a buffer that is none of its three arrays). -/
theorem W3_to_W2 (r : Ref sig .tc) (hA : ∀ w, Pipeline.arrRef spec0 w ≠ r := by decide) :
    W3 m ρ c (Proc.devRef .tc r) = W2 m ρ c (Proc.devRef .tc r) :=
  W3_of_ne m ρ c r hA

/-- Through the stretch after the first region. -/
theorem W4_to_W3 (r : Ref sig .tc) (h1 : r ∉ wr_hostOps1 := by decide) :
    W4 m ρ c (Proc.devRef .tc r) = W3 m ρ c (Proc.devRef .tc r) :=
  keep_hostOps1 _ r h1

/-- Through that stretch and the clamp after it. -/
theorem W5_to_W3 (r : Ref sig .tc) (h1 : r ∉ wr_hostOps1 := by decide) (h2 : r ∉ wr_hostOps1_1 := by decide) :
    W5 m ρ c (Proc.devRef .tc r) = W3 m ρ c (Proc.devRef .tc r) :=
  (keep_hostOps1_1 _ r h2).trans (keep_hostOps1 _ r h1)

/-- Through the second region. -/
theorem W6_to_W5 (r : Ref sig .tc) (hB : ∀ w, Pipeline.arrRef spec1 w ≠ r := by decide) :
    W6 m ρ c (Proc.devRef .tc r) = W5 m ρ c (Proc.devRef .tc r) :=
  W6_of_ne m ρ c r hB

/-- Through the stretch after the second region. -/
theorem W7_to_W6 (r : Ref sig .tc) (h3 : r ∉ wr_hostOps2 := by decide) :
    W7 m ρ c (Proc.devRef .tc r) = W6 m ρ c (Proc.devRef .tc r) :=
  keep_hostOps2 _ r h3

/-- Through that stretch and the clamp after it. -/
theorem W8_to_W6 (r : Ref sig .tc) (h3 : r ∉ wr_hostOps2 := by decide) (h4 : r ∉ wr_hostOps2_1 := by decide) :
    W8 m ρ c (Proc.devRef .tc r) = W6 m ρ c (Proc.devRef .tc r) :=
  (keep_hostOps2_1 _ r h4).trans (keep_hostOps2 _ r h3)

/-- Through the third region. -/
theorem W9_to_W8 (r : Ref sig .tc) (hC : ∀ w, Pipeline.arrRef spec2 w ≠ r := by decide) :
    W9 m ρ c (Proc.devRef .tc r) = W8 m ρ c (Proc.devRef .tc r) :=
  W9_of_ne m ρ c r hC

/-- From the first region's entry to the third region's exit: a buffer nothing in between writes. -/
theorem W9_to_W2 (r : Ref sig .tc) (hA : ∀ w, Pipeline.arrRef spec0 w ≠ r := by decide)
    (h1 : r ∉ wr_hostOps1 := by decide)
    (h2 : r ∉ wr_hostOps1_1 := by decide)
    (hB : ∀ w, Pipeline.arrRef spec1 w ≠ r := by decide)
    (h3 : r ∉ wr_hostOps2 := by decide)
    (h4 : r ∉ wr_hostOps2_1 := by decide)
    (hC : ∀ w, Pipeline.arrRef spec2 w ≠ r := by decide) :
    W9 m ρ c (Proc.devRef .tc r) = W2 m ρ c (Proc.devRef .tc r) :=
  (W9_to_W8 m ρ c r hC).trans ((W8_to_W6 m ρ c r h3 h4).trans ((W6_to_W5 m ρ c r hB).trans ((W5_to_W3 m ρ c r h1 h2).trans (W3_to_W2 m ρ c r hA))))

/-- Through the stretch after the third region. -/
theorem W10_to_W9 (r : Ref sig .tc) (h5 : r ∉ wr_hostOps3 := by decide) :
    W10 m ρ c (Proc.devRef .tc r) = W9 m ρ c (Proc.devRef .tc r) :=
  keep_hostOps3 _ r h5

/-- Through that stretch and the clamp after it. -/
theorem W11_to_W9 (r : Ref sig .tc) (h5 : r ∉ wr_hostOps3 := by decide) (h6 : r ∉ wr_hostOps3_1 := by decide) :
    W11 m ρ c (Proc.devRef .tc r) = W9 m ρ c (Proc.devRef .tc r) :=
  (keep_hostOps3_1 _ r h6).trans (keep_hostOps3 _ r h5)

/-- Through the closing stretches up to the last one. -/
theorem W13_to_W9 (r : Ref sig .tc) (h5 : r ∉ wr_hostOps3 := by decide) (h6 : r ∉ wr_hostOps3_1 := by decide) (h7 : r ∉ wr_hostOps3_2 := by decide) (h8 : r ∉ wr_hostOps3_3 := by decide) :
    W13 m ρ c (Proc.devRef .tc r) = W9 m ρ c (Proc.devRef .tc r) :=
  (keep_hostOps3_3 _ r h8).trans ((keep_hostOps3_2 _ r h7).trans ((keep_hostOps3_1 _ r h6).trans (keep_hostOps3 _ r h5)))

/-- An argument array (or any buffer nothing writes before the third region's exit) holds its launch contents there. -/
theorem W9_keep (r : Ref sig .tc) (h0 : r ∉ wr_hostOps0 := by decide) (h01 : r ∉ wr_hostOps0_1 := by decide)
    (hA : ∀ w, Pipeline.arrRef spec0 w ≠ r := by decide)
    (h1 : r ∉ wr_hostOps1 := by decide)
    (h2 : r ∉ wr_hostOps1_1 := by decide)
    (hB : ∀ w, Pipeline.arrRef spec1 w ≠ r := by decide)
    (h3 : r ∉ wr_hostOps2 := by decide)
    (h4 : r ∉ wr_hostOps2_1 := by decide)
    (hC : ∀ w, Pipeline.arrRef spec2 w ≠ r := by decide) :
    W9 m ρ c (Proc.devRef .tc r) = m ((c : Thread nD τ).loc r) :=
  (W9_to_W2 m ρ c r hA h1 h2 hB h3 h4 hC).trans (W2_keep m ρ c r h0 h01)

/-! ## The opening stretch and the selection after it -/

theorem W2_src : W2 m ρ c (Proc.devRef .tc main_v3) = srcOf (m ((c : Thread nD τ).loc main_arg1)) := (W2_to_W1 m ρ c main_v3).trans (opening_src (W0 m ρ c))
theorem W2_dst : W2 m ρ c (Proc.devRef .tc main_v6) = dstOf (m ((c : Thread nD τ).loc main_arg1)) := (W2_to_W1 m ρ c main_v6).trans (opening_dst (W0 m ρ c))
theorem W1_pos : W1 m ρ c (Proc.devRef .tc main_v12) = cmpf (F := Ideal) .ogt (Cert.Gcn.degree (F := Ideal) (dstOf (m ((c : Thread nD τ).loc main_arg1)))) (broadcastInDim Cert.ReferenceIdeal.S50000 ![] Cert.ReferenceIdeal.Gen.bcast_S_S50000 (constant Cert.ReferenceIdeal.S_ .f32 0x00000000#32)) := opening_pos (W0 m ρ c)
theorem W1_rsqrt : W1 m ρ c (Proc.devRef .tc main_v15) = Host.rsqrt (F := Ideal) (maximumf (Cert.Gcn.degree (F := Ideal) (dstOf (m ((c : Thread nD τ).loc main_arg1)))) (broadcastInDim Cert.ReferenceIdeal.S50000 ![] Cert.ReferenceIdeal.Gen.bcast_S_S50000 (constant Cert.ReferenceIdeal.S_ .f32 0x3F800000#32))) := opening_rsqrt (W0 m ρ c)
theorem W1_zero : W1 m ρ c (Proc.devRef .tc main_cst_3) = constant (F := Ideal) Cert.ReferenceIdeal.S_ .f32 0x00000000#32 := opening_zero (W0 m ρ c)
theorem W2_isd : W2 m ρ c (Proc.devRef .tc main_v16) = invSqrtDeg (F := Ideal) (dstOf (m ((c : Thread nD τ).loc main_arg1))) := by
  refine (where_val (W1 m ρ c)).trans ?_
  rw [W1_pos, W1_rsqrt, W1_zero]
  rfl

/-! ## The three layers -/

/-- The node features after the first, second and third layer, as functions of the arguments. -/
abbrev feat1 : Cert.Gcn.FV Ideal Cert.ReferenceIdeal.S50000x256 :=
  aggregate (F := Ideal) (rowsTimes (m ((c : Thread nD τ).loc main_arg0)) (m ((c : Thread nD τ).loc main_arg3))) (invSqrtDeg (F := Ideal) (dstOf (m ((c : Thread nD τ).loc main_arg1)))) (srcOf (m ((c : Thread nD τ).loc main_arg1))) (dstOf (m ((c : Thread nD τ).loc main_arg1))) (m ((c : Thread nD τ).loc main_arg4))
abbrev feat2 : Cert.Gcn.FV Ideal Cert.ReferenceIdeal.S50000x256 :=
  aggregate (F := Ideal) (rowsTimes (feat1 m c) (m ((c : Thread nD τ).loc main_arg5))) (invSqrtDeg (F := Ideal) (dstOf (m ((c : Thread nD τ).loc main_arg1)))) (srcOf (m ((c : Thread nD τ).loc main_arg1))) (dstOf (m ((c : Thread nD τ).loc main_arg1))) (m ((c : Thread nD τ).loc main_arg6))
abbrev feat3 : Cert.Gcn.FV Ideal Cert.ReferenceIdeal.S50000x256 :=
  aggregate (F := Ideal) (rowsTimes (feat2 m c) (m ((c : Thread nD τ).loc main_arg7))) (invSqrtDeg (F := Ideal) (dstOf (m ((c : Thread nD τ).loc main_arg1)))) (srcOf (m ((c : Thread nD τ).loc main_arg1))) (dstOf (m ((c : Thread nD τ).loc main_arg1))) (m ((c : Thread nD τ).loc main_arg8))

/-- The first region's product. -/
theorem at_W3 : W3 m ρ c (Proc.devRef .tc main_v17) = rowsTimes (m ((c : Thread nD τ).loc main_arg0)) (m ((c : Thread nD τ).loc main_arg3)) := by
  refine (W3_arr m ρ c 2).trans ((final0 (V2 m ρ) c).trans ?_)
  show rowsTimes (W2 m ρ c (Proc.devRef .tc main_arg0)) (W2 m ρ c (Proc.devRef .tc main_arg3)) = _
  rw [W2_keep m ρ c main_arg0, W2_keep m ρ c main_arg3]

/-- Layer 1 before its clamp, over the contents at the region's exit. -/
theorem W4_pre : W4 m ρ c (Proc.devRef .tc main_v48) = preact (F := Ideal) (W3 m ρ c (Proc.devRef .tc main_v17)) (W3 m ρ c (Proc.devRef .tc main_v16)) (W3 m ρ c (Proc.devRef .tc main_v3)) (W3 m ρ c (Proc.devRef .tc main_v6)) (W3 m ρ c (Proc.devRef .tc main_arg4)) :=
  layer1_pre (W3 m ρ c)

/-- The first layer's features. -/
theorem at_W5 : W5 m ρ c (Proc.devRef .tc main_v49) = feat1 m c := by
  refine (layer1_relu (W4 m ρ c)).trans ?_
  rw [W4_pre, at_W3, W3_to_W2 m ρ c main_v16, W3_to_W2 m ρ c main_v3, W3_to_W2 m ρ c main_v6, W3_to_W2 m ρ c main_arg4,
    W2_isd, W2_src, W2_dst, W2_keep m ρ c main_arg4]
  rfl

/-- The second region's product. -/
theorem at_W6 : W6 m ρ c (Proc.devRef .tc main_v50) = rowsTimes (feat1 m c) (m ((c : Thread nD τ).loc main_arg5)) := by
  refine (W6_arr m ρ c 2).trans ((final1 (V5 m ρ) c).trans ?_)
  show rowsTimes (W5 m ρ c (Proc.devRef .tc main_v49)) (W5 m ρ c (Proc.devRef .tc main_arg5)) = _
  rw [at_W5, W5_to_W3 m ρ c main_arg5, W3_to_W2 m ρ c main_arg5, W2_keep m ρ c main_arg5]

/-- Layer 2 before its clamp, over the contents at the region's exit. -/
theorem W7_pre : W7 m ρ c (Proc.devRef .tc main_v81) = preact (F := Ideal) (W6 m ρ c (Proc.devRef .tc main_v50)) (W6 m ρ c (Proc.devRef .tc main_v16)) (W6 m ρ c (Proc.devRef .tc main_v3)) (W6 m ρ c (Proc.devRef .tc main_v6)) (W6 m ρ c (Proc.devRef .tc main_arg6)) :=
  layer2_pre (W6 m ρ c)

/-- The second layer's features. -/
theorem at_W8 : W8 m ρ c (Proc.devRef .tc main_v82) = feat2 m c := by
  refine (layer2_relu (W7 m ρ c)).trans ?_
  rw [W7_pre, at_W6,
    W6_to_W5 m ρ c main_v16, W5_to_W3 m ρ c main_v16, W3_to_W2 m ρ c main_v16,
    W6_to_W5 m ρ c main_v3, W5_to_W3 m ρ c main_v3, W3_to_W2 m ρ c main_v3,
    W6_to_W5 m ρ c main_v6, W5_to_W3 m ρ c main_v6, W3_to_W2 m ρ c main_v6,
    W6_to_W5 m ρ c main_arg6, W5_to_W3 m ρ c main_arg6, W3_to_W2 m ρ c main_arg6,
    W2_isd, W2_src, W2_dst, W2_keep m ρ c main_arg6]
  rfl

/-- The third region's product. -/
theorem at_W9 : W9 m ρ c (Proc.devRef .tc main_v83) = rowsTimes (feat2 m c) (m ((c : Thread nD τ).loc main_arg7)) := by
  refine (W9_arr m ρ c 2).trans ((final2 (V8 m ρ) c).trans ?_)
  show rowsTimes (W8 m ρ c (Proc.devRef .tc main_v82)) (W8 m ρ c (Proc.devRef .tc main_arg7)) = _
  rw [at_W8, W8_to_W6 m ρ c main_arg7, W6_to_W5 m ρ c main_arg7, W5_to_W3 m ρ c main_arg7, W3_to_W2 m ρ c main_arg7, W2_keep m ρ c main_arg7]

/-- Layer 3 before its clamp, over the contents at the region's exit. -/
theorem W10_pre : W10 m ρ c (Proc.devRef .tc main_v114) = preact (F := Ideal) (W9 m ρ c (Proc.devRef .tc main_v83)) (W9 m ρ c (Proc.devRef .tc main_v16)) (W9 m ρ c (Proc.devRef .tc main_v3)) (W9 m ρ c (Proc.devRef .tc main_v6)) (W9 m ρ c (Proc.devRef .tc main_arg8)) :=
  layer3_pre (W9 m ρ c)

/-- The third layer's features. -/
theorem at_W11 : W11 m ρ c (Proc.devRef .tc main_v115) = feat3 m c := by
  refine (layer3_relu (W10 m ρ c)).trans ?_
  rw [W10_pre, at_W9, W9_to_W2 m ρ c main_v16, W9_to_W2 m ρ c main_v3, W9_to_W2 m ρ c main_v6, W9_keep m ρ c main_arg8,
    W2_isd, W2_src, W2_dst]
  rfl

/-! ## The read-out and the result -/

/-- The read-out's first dense layer, before its clamp. -/
theorem at_W12 : W12 m ρ c (Proc.devRef .tc main_v131) = hidden (F := Ideal) (feat3 m c) (m ((c : Thread nD τ).loc main_arg2)) (m ((c : Thread nD τ).loc main_arg9)) (m ((c : Thread nD τ).loc main_arg10)) := by
  refine (closing_hidden (W11 m ρ c)).trans ?_
  rw [at_W11, W11_to_W9 m ρ c main_arg2, W11_to_W9 m ρ c main_arg9, W11_to_W9 m ρ c main_arg10,
    W9_keep m ρ c main_arg2, W9_keep m ρ c main_arg9, W9_keep m ρ c main_arg10]

/-- The read-out's first dense layer, clamped below at 0. -/
theorem at_W13 : W13 m ρ c (Proc.devRef .tc main_v132) = maximumf (F := Ideal) (hidden (F := Ideal) (feat3 m c) (m ((c : Thread nD τ).loc main_arg2)) (m ((c : Thread nD τ).loc main_arg9)) (m ((c : Thread nD τ).loc main_arg10))) (broadcastInDim Cert.ReferenceIdeal.S64x256 ![] Cert.ReferenceIdeal.Gen.bcast_S_S64x256 (constant Cert.ReferenceIdeal.S_ .f32 0x00000000#32)) :=
  (closing_relu (W12 m ρ c)).trans (by rw [at_W12])

/-- The result array at the return holds the network over the plain-sum product, of the thirteen arguments. -/
theorem result_eq : W14 m ρ c (Proc.devRef .tc main_v136)
    = network (F := Ideal) rowsTimes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (closing_out (W13 m ρ c)).trans ?_
  rw [at_W13, W13_to_W9 m ρ c main_arg11, W13_to_W9 m ρ c main_arg12,
    W9_keep m ρ c main_arg11, W9_keep m ρ c main_arg12]
  rfl

/-- The run: the result array at the network's value, the arguments unchanged. -/
theorem run : θ_run defs (onTc (τ := τ) (main (F := Ideal))) ⟨m, fun _ => 0, ρ⟩ (fun r => ∀ c : Dev nD,
      r.2.mem ((c.tc : Thread nD τ).loc main_v136) = network (F := Ideal) rowsTimes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (run_result m ρ)

end Cert.KernelIdeal.Whole

end
-- ==== Proof.RefValue.lean ====
/-
  What the idealized reference program computes: the same network, over the host's own matrix product.

  The reference's run ends with its result array at one long term of the thirteen arguments.  Read from the outside in, that
  term is the read-out of the third layer's aggregation of the host's dot_general of the second layer's features with the third
  weight matrix, and so on down to the arguments: the network with the host's dot_general as its product.  On the extended reals
  that dot_general is the plain sum over the shared axis, so the reference computes `network rowsTimes` of its arguments.
-/
import proofs.«128684_j52879637348574_1_alg».proof.Proof.RefRunPatched
import proofs.«128684_j52879637348574_1_alg».proof.Proof.Spec

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem
open Cert.Gcn (network rowsTimes FV)

variable (m : (ℓ : Loc nD τ sig) → Buf (Elt Ideal) ℓ) (c : Dev nD)

/-- The run's result term is the network over the host's dot_general. -/
theorem res_eq_network_host : res_main_v136 (F := Ideal) m c
    = network (F := Ideal) (fun l r => Host.dotGeneral (F := Ideal) dot_S50000x256_S256x256_S50000x256_1_0_0_1_n_n none l r) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v136
  rfl

/-- The host's dot_general, as a function of its two operands, is the plain-sum product. -/
theorem dotGeneral_fun : (fun (l : FV Ideal S50000x256) (r : FV Ideal S256x256) => Host.dotGeneral (F := Ideal) dot_S50000x256_S256x256_S50000x256_1_0_0_1_n_n none l r) = rowsTimes :=
  funext fun l => funext fun r => Cert.Gcn.dotGeneral_eq_rowsTimes l r

/-- The run's result term is the network over the plain-sum product. -/
theorem res_eq : res_main_v136 (F := Ideal) m c = network (F := Ideal) rowsTimes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [res_eq_network_host, dotGeneral_fun]

end Cert.ReferenceIdeal.RefValue

end
-- ==== Proof.lean ====
/-
  The five claims about the three-layer graph convolution network.

  The kernel program is the reference program with each of its three products of the node features with a 256×256 weight matrix
  done by a matrix-unit kernel over ten row blocks (operands rounded to bf16 on the way in, products accumulated in f32 from
  zero) in place of the host's dot_general.  Read at the extended reals, where a change of float format is the identity and
  both products are the exact sum over the shared axis, the two programs compute one function of the thirteen arguments:
  `Cert.Gcn.network Cert.Gcn.rowsTimes`.  Neither the finiteness of the inputs nor any property of the integer inputs is
  used: the two sums have the same terms in the same grouping (the shared axis is not tiled), and everything around the
  products is the same text in both programs.

  · the two kernel programs' frames are the generated ones;
  · the reference's frame is its run with the result dropped;
  · the idealization rewrote nothing, so there is nothing to preserve;
  · the equivalence: the kernel's run ends at the network's value of its arguments (Proof/KernelValue.lean), the reference's
    at the same function of its own arguments (Proof/RefValue.lean), and the arguments agree.
-/
import proofs.«128684_j52879637348574_1_alg».proof.Defs
import proofs.«128684_j52879637348574_1_alg».proof.Proof.Gen.Kernel
import proofs.«128684_j52879637348574_1_alg».proof.Proof.Gen.Kernel.Skeleton
import proofs.«128684_j52879637348574_1_alg».proof.Proof.Gen.Kernel.Launch
import proofs.«128684_j52879637348574_1_alg».proof.Proof.Gen.Kernel.Points
import proofs.«128684_j52879637348574_1_alg».proof.Proof.Gen.Kernel.Frame
import proofs.«128684_j52879637348574_1_alg».proof.Proof.Gen.KernelIdeal
import proofs.«128684_j52879637348574_1_alg».proof.Proof.Gen.KernelIdeal.Skeleton
import proofs.«128684_j52879637348574_1_alg».proof.Proof.Gen.KernelIdeal.Launch
import proofs.«128684_j52879637348574_1_alg».proof.Proof.Gen.KernelIdeal.Points
import proofs.«128684_j52879637348574_1_alg».proof.Proof.Gen.KernelIdeal.Frame
import proofs.«128684_j52879637348574_1_alg».proof.Proof.Gen.ReferenceIdeal
import proofs.«128684_j52879637348574_1_alg».proof.Proof.Gen.Pre_finite_inputs
import proofs.«128684_j52879637348574_1_alg».proof.Proof.KernelValue
import proofs.«128684_j52879637348574_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at the network's value of the (agreeing) arguments. -/
theorem algebraic : Cert.algebraic_KernelIdeal_ReferenceIdeal := by
  intro m ρ m' ρ' _ hagree
  refine ⟨fun c => Cert.Gcn.network (F := Ideal) Cert.Gcn.rowsTimes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12⟩ := hagree c
  rw [Cert.ReferenceIdeal.RefValue.res_eq m' c, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
